-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel

variable [Facts]

def fn {F : FTy → Type} [FloatOps F] (main_arg0 : FVec F S262144x128 .f32) (main_arg1 : FVec F S262144x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  main_v8
-- ==== Kernel.lean ====
abbrev S262144x128 : Shape := ⟨2, ![262144, 128]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x1, .f32⟩
  | .local _ .vmem, ⟨5, _⟩ => ⟨S1x1, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v18 : BitVec 1 := Scalar.cmpi .eq arg0 c63_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S_ : S1x1.ShapeCasts S_
  bcast_S_S1 : S_.BroadcastsInDim S1 (![] : Fin 0 → Fin S1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S262144x128 : Shape := ⟨2, ![262144, 128]⟩
abbrev S_ : Shape := ⟨0, ![]⟩
abbrev S1 : Shape := ⟨1, ![1]⟩

abbrev nBuf : Space → Nat
  | .hbm => 13
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S_, .f32⟩
  | .hbm, ⟨3, _⟩ => ⟨S262144x128, .f32⟩
  | .hbm, ⟨4, _⟩ => ⟨S262144x128, .f32⟩
  | .hbm, ⟨5, _⟩ => ⟨S262144x128, .f32⟩
  | .hbm, ⟨6, _⟩ => ⟨S262144x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S1 : S_.BroadcastsInDim S1 (![] : Fin 0 → Fin S1.rank)

variable [Facts₀]

class Facts : Prop extends Facts₀ where

variable [Facts]
-- ==== Proof.CasePieces.lean ====
/-
  What each control case of the kernel body leaves behind, as a value.

  The body has three cases over the grid of 64 points.  At the first point it resets the 1×1 accumulator to
  zero, reads it back, and stores "accumulator + this block's sum".  At the middle points it stores
  "what the point before left + this block's sum".  At the last point it does the same and then copies the
  accumulator into the 1×1 output.  In every case the accumulator therefore ends at the accumulate step applied
  to the two input blocks and to the accumulator's value before the step (zero at the first point), and at the
  last point the output ends at that same value.  The statements hold for any float instance: they only follow
  the stores and loads, which all cover the whole 1×1 buffer.
-/
import proofs.«118409_j80358838108292_1_alg».proof.Proof.Gen.KernelIdeal.Frame
import Idealize.ShloMosaic.Lib.Pipeline.Value
import Idealize.ShloMosaic.Lib.Tactic

noncomputable section

namespace Cert.KernelIdeal.CasePieces

open Cert.KernelIdeal Cert.KernelIdeal.Gen Idealize.ShloMosaic Idealize.ShloMosaic.TcCoe Idealize.SL.Sem
open Idealize.ShloMosaic.Tactic
open Idealize.ShloMosaic.Pipeline (Dat)

variable {F : FTy → Type} [FloatOps F]

/-- The zero offsets of a rectangle that starts at a buffer's origin. -/
theorem origin : (![0, 0] : Fin 2 → Nat) = fun _ => 0 := funext fun a => by fin_cases a <;> rfl

/-- First point: the accumulator ends at the accumulate step over the reset value. -/
theorem acc_first (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S4096x128 .f32) (x1 : Vec F S4096x128 .f32) :
    sout0_A_0 c i arg1 harg1 arg2 harg2 arg3 harg3 arg4 harg4 hc0 hc1 x0 x1 = k0_pay2 x0 x1 (k0_pay1 (F := F)) := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S1x1) origin, View.readCov_unit_zero (S := S1x1) _ origin]
  simp only [View.readAt_eq_ld, harg1.read_unread, harg2.read_unread, View.ld_unit_zero (S := S4096x128) origin]

/-- A middle point: the accumulator ends at the accumulate step over what the point before left. -/
theorem acc_middle (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S4096x128 .f32) (x1 : Vec F S4096x128 .f32) (xs0 : Vec F S1x1 .f32) :
    sout0_B_0 c i arg1 harg1 arg2 harg2 arg3 harg3 arg4 harg4 hc0 hc1 x0 x1 xs0 = k0_pay2 x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero origin]
  simp only [View.readAt_eq_ld, harg1.read_unread, harg2.read_unread, harg4.read_unread,
    View.ld_unit_zero (S := S4096x128) origin, View.ld_unit_zero (S := S1x1) origin]

/-- The last point: the accumulator again ends at the accumulate step over what the point before left … -/
theorem acc_last (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S4096x128 .f32) (x1 : Vec F S4096x128 .f32) (xs0 : Vec F S1x1 .f32) :
    sout0_C_0 c i arg1 harg1 arg2 harg2 arg3 harg3 arg4 harg4 hc0 hc1 x0 x1 xs0 = k0_pay2 x0 x1 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero origin]
  simp only [View.readAt_eq_ld, harg1.read_unread, harg2.read_unread, harg4.read_unread,
    View.ld_unit_zero (S := S4096x128) origin, View.ld_unit_zero (S := S1x1) origin]

/-- … and the output, a copy of the accumulator read back after that store, holds the same value. -/
theorem out_last (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S4096x128 .f32) (x1 : Vec F S4096x128 .f32) (xs0 : Vec F S1x1 .f32) :
    out0_C_2 c i arg1 harg1 arg2 harg2 arg3 harg3 arg4 harg4 hc0 hc1 x0 x1 xs0 = k0_pay2 x0 x1 xs0 := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero origin, View.readCov_unit_zero (S := S1x1) _ origin]
  simp only [View.readAt_eq_ld, harg1.read_unread, harg2.read_unread, harg4.read_unread,
    View.ld_unit_zero (S := S4096x128) origin, View.ld_unit_zero (S := S1x1) origin]

end Cert.KernelIdeal.CasePieces

end
-- ==== Proof.LibChunkedSum.lean ====
import Mathlib.Algebra.BigOperators.Fin
import Mathlib.Algebra.BigOperators.Intervals

/-!
# A sum over an axis cut in equal chunks

An axis of `n * b` terms is cut in `n` consecutive chunks of width `b`.  In an additive
commutative monoid the sum of the chunk sums is the sum over the whole axis, and a
running total that starts from "first chunk plus a constant" and then adds one chunk at a
time is, at every stage, "sum of the chunks so far, plus the constant".  Only associativity
and commutativity of `+` are used.
-/

namespace Cert.Lib.ChunkedSum

open Finset

variable {M : Type*} [AddCommMonoid M]

/-- Chunk `p` of width `b` of the sequence `f`: the sum of the `b` consecutive terms
`f (b * p), f (b * p + 1), …, f (b * p + (b - 1))`. -/
def chunk (b : ℕ) (f : ℕ → M) (p : ℕ) : M := ∑ q : Fin b, f (b * p + q.val)

/-- A chunk written as a sum over the initial segment `{0, …, b - 1}` of the naturals. -/
theorem chunk_eq_sum_range (b : ℕ) (f : ℕ → M) (p : ℕ) :
    chunk b f p = ∑ q ∈ range b, f (b * p + q) :=
  Fin.sum_univ_eq_sum_range (fun q => f (b * p + q)) b

/-- The first `n` chunks of width `b` tile the first `n * b` terms: the sum of their sums is
the sum of `f 0, …, f (n * b - 1)`, written over the naturals. -/
theorem sum_chunks_range (n b : ℕ) (f : ℕ → M) :
    ∑ p ∈ range n, chunk b f p = ∑ j ∈ range (n * b), f j := by
  induction n with
  | zero => simp
  | succ n ih =>
    rw [sum_range_succ, ih, chunk_eq_sum_range, Nat.succ_mul, sum_range_add, Nat.mul_comm b n]

/-- The chunks tile the axis: the sum over `p < n` of chunk `p` is the sum of all
`n * b` terms. -/
theorem sum_chunks (n b : ℕ) (f : ℕ → M) :
    ∑ p ∈ Finset.range n, chunk b f p = ∑ j : Fin (n * b), f j.val := by
  rw [sum_chunks_range, Fin.sum_univ_eq_sum_range (fun j => f j) (n * b)]

/-- The first stage of the running total: chunk `0` plus the constant `β` is the sum of the
first one chunk, plus `β`. -/
theorem acc_first (b : ℕ) (f : ℕ → M) (β : M) :
    chunk b f 0 + β = (∑ p ∈ Finset.range 1, chunk b f p) + β := by
  rw [sum_range_one]

/-- One more stage of the running total: adding chunk `k + 1` to "the first `k + 1` chunks
plus `β`" gives "the first `k + 2` chunks plus `β`". -/
theorem acc_step (b k : ℕ) (f : ℕ → M) (β : M) :
    ((∑ p ∈ Finset.range (k + 1), chunk b f p) + β) + chunk b f (k + 1)
      = (∑ p ∈ Finset.range (k + 2), chunk b f p) + β := by
  rw [add_right_comm, ← sum_range_succ]

/-- Four chunks of width `256` tile an axis of `1024` terms. -/
theorem sum_chunks_1024 (f : ℕ → M) :
    ∑ p ∈ Finset.range 4, chunk 256 f p = ∑ j : Fin 1024, f j.val :=
  sum_chunks 4 256 f

end Cert.Lib.ChunkedSum
-- ==== Proof.EntropySum.lean ====
/-
  The quantity both programs compute, and the one law that joins their two arrangements of it.

  For arrays `x`, `t` of 262144 rows by 128 lanes, the loss before its sign and scale is the sum over every
  entry of `x · log (t + ε)` on the extended reals (ε the float nearest 1e-8).  One program adds all the
  terms in a single sum over the index set.  The other walks the rows in 64 consecutive blocks of 4096 rows:
  inside a block it sums each row's 128 lanes, then the 4096 row sums, and it keeps a running total that
  starts from zero and takes one block's sum at a time.  Addition of extended reals is commutative and
  associative, so cutting the rows into consecutive blocks and summing block by block changes nothing: no
  entry needs to be finite for that.
-/
import Idealize.ShloMosaic.Lib.ValueIdx
import Idealize.ShloMosaic.PureOps.Ideal
import proofs.«118409_j80358838108292_1_alg».proof.Proof.LibChunkedSum

noncomputable section

open scoped BigOperators

namespace Cert.EntropySum

open Idealize.ShloMosaic Idealize.ShloMosaic.ValueIdx Cert.Lib.ChunkedSum

/-- The arrays' shape: 262144 rows of 128 lanes. -/
abbrev Arr : Shape := ⟨2, ![262144, 128]⟩
/-- One block's shape: 4096 rows of 128 lanes. -/
abbrev Blk : Shape := ⟨2, ![4096, 128]⟩

/-- One term of the loss, `p · log (q + ε)` on the extended reals. -/
def term (p q : EReal) : EReal := p * Ideal.log (q + Ideal.ofBits .f32 0x322BCC77#32)

/-- The sum of every term, over the whole index set at once. -/
def total (x t : Arr.Idx → EReal) : EReal := ∑ j : Arr.Idx, term (x j) (t j)

/-- The sum of the 128 terms of row `r`. -/
def rowSum (x t : Arr.Idx → EReal) (r : Fin 262144) : EReal := ∑ c : Fin 128, term (x (ix2 r c)) (t (ix2 r c))

/-- The row sums as a sequence over the naturals (zero past the last row), so that consecutive blocks of rows are
    consecutive chunks of a sequence. -/
def rowSeq (x t : Arr.Idx → EReal) (r : ℕ) : EReal := if h : r < 262144 then rowSum x t ⟨r, h⟩ else 0

/-- The sum of the terms of one block of 4096 rows: lanes first, then rows. -/
def blockSum (u v : Blk.Idx → EReal) : EReal := ∑ k : Fin 4096, ∑ c : Fin 128, term (u (ix2 k c)) (v (ix2 k c))

/-- The running total after the blocks `0, …, n`. -/
def partialSum (x t : Arr.Idx → EReal) (n : ℕ) : EReal := ∑ p ∈ Finset.range (n + 1), chunk 4096 (rowSeq x t) p

/-- A block that reads rows `4096 p, …, 4096 p + 4095` of the arrays sums to chunk `p` of the row sums. -/
theorem blockSum_eq_chunk (x t : Arr.Idx → EReal) (u v : Blk.Idx → EReal) (p : ℕ) (hp : p < 64)
    (hu : ∀ (k : Fin 4096) (c : Fin 128), u (ix2 k c) = x (ix2 ⟨4096 * p + k.val, by have := k.isLt; omega⟩ c))
    (hv : ∀ (k : Fin 4096) (c : Fin 128), v (ix2 k c) = t (ix2 ⟨4096 * p + k.val, by have := k.isLt; omega⟩ c)) :
    blockSum u v = chunk 4096 (rowSeq x t) p := by
  unfold blockSum chunk
  refine Finset.sum_congr rfl fun k _ => ?_
  have hk : 4096 * p + k.val < 262144 := by have := k.isLt; omega
  unfold rowSeq
  rw [dif_pos hk]
  unfold rowSum
  exact Finset.sum_congr rfl fun c _ => by rw [hu k c, hv k c]

/-- The running total after the first block, started from zero. -/
theorem partialSum_zero (x t : Arr.Idx → EReal) (z B : EReal) (hz : z = 0) (hB : B = chunk 4096 (rowSeq x t) 0) :
    z + B = partialSum x t 0 := by
  unfold partialSum
  rw [hz, hB, zero_add, Finset.sum_range_one]

/-- One more block: the running total after block `n` plus block `n + 1`'s sum. -/
theorem partialSum_succ (x t : Arr.Idx → EReal) (n : ℕ) (A B : EReal) (hA : A = partialSum x t n)
    (hB : B = chunk 4096 (rowSeq x t) (n + 1)) : A + B = partialSum x t (n + 1) := by
  unfold partialSum at hA ⊢
  rw [Finset.sum_range_succ _ (n + 1), hA, hB]

/-- The 64 blocks of 4096 rows tile the 262144 rows: the running total after the last block is the sum of every
    term. -/
theorem partialSum_last (x t : Arr.Idx → EReal) : partialSum x t 63 = total x t := by
  unfold partialSum total
  rw [sum_chunks 64 4096 (rowSeq x t), sum_idx2]
  show ∑ r : Fin 262144, rowSeq x t r.val = _
  refine Finset.sum_congr rfl fun r _ => ?_
  unfold rowSeq
  rw [dif_pos r.isLt]
  rfl

end Cert.EntropySum

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.LibColumnSum.lean ====
/-
  GENERAL LEMMAS: a column `[a, 1]` summed along its first axis into `[1]` — what `sum(x, axis=0, keepdims=True)`
  of a column becomes in a vector program before the sum is cast back to `[1, 1]` — read at an index given by
  coordinates, and a sum over the indices of a one-axis array written over the coordinate.
  • `multiReduction_add_axis0_col_apply`: the sum of an `[a, 1]` column from the zero word, at its one index, is the sum
    of the column's entries;
  • `sum_idx1`: the sum over every index of an `[n]` array is the sum over `Fin n` of the array at `ix1`.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-- The sum along the first axis of an `[a, 1]` column of extended reals, accumulated from the zero word: at its one
    index it is the sum of the column's entries. -/
theorem multiReduction_add_axis0_col_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ) (u : Fin 1) :
    multiReduction .add [0] ⟨1, ![1]⟩ src 0x00000000#32 h hφ hacc (ix1 u) = ∑ k : Fin a, src (ix2 k (0 : Fin 1)) := by
  refine (Ideal.multiReduction_add_single src 0x00000000#32 h hφ hacc (ix1 u)).trans ?_
  refine Finset.sum_congr rfl fun k _ => congrArg src ?_
  funext c
  match c with
  | ⟨0, _⟩ => exact Fin.ext rfl
  | ⟨1, _⟩ => exact Fin.ext (by show u.val = 0; omega)

/-- The sum over every index of a one-axis array is the sum over its coordinate. -/
theorem sum_idx1 {M : Type*} [AddCommMonoid M] {n : ℕ} (f : (⟨1, ![n]⟩ : Shape).Idx → M) :
    ∑ j, f j = ∑ a : Fin n, f (ix1 a) :=
  Fintype.sum_equiv ⟨fun j => j 0, ix1, fun j => (eq_ix1 j).symm, fun _ => rfl⟩ _ _ fun j => congrArg f (eq_ix1 j)

end Idealize.ShloMosaic.ValueIdx

end
-- ==== Proof.BlockPayload.lean ====
/-
  What the kernel body computes from one pair of blocks, read at the one entry of its 1×1 result.

  The body takes a block `u` of the first array and `v` of the second (4096 rows of 128 lanes each) and the
  1×1 accumulator `a`.  It forms `u · log (v + ε)` entry by entry, sums each row's lanes, turns the 4096 row
  sums into a column, sums the column, and adds the result to the accumulator.  On the extended reals that is
  `a + ∑ₖ ∑_c u(k,c) · log (v(k,c) + ε)`.  The value it stores at the first grid point's reset is zero.
-/
import proofs.«118409_j80358838108292_1_alg».proof.Proof.Gen.KernelIdeal.Skeleton
import proofs.«118409_j80358838108292_1_alg».proof.Proof.EntropySum
import proofs.«118409_j80358838108292_1_alg».proof.Proof.LibKeepdims
import proofs.«118409_j80358838108292_1_alg».proof.Proof.LibColumnSum
import Idealize.ShloMosaic.Lib.Pipeline.Value

noncomputable section

open scoped BigOperators

namespace Cert.KernelIdeal.BlockPayload

open Cert.KernelIdeal Cert.KernelIdeal.Gen Idealize.ShloMosaic Idealize.ShloMosaic.ValueIdx Idealize.ShloMosaic.Pipeline
open Cert.EntropySum

/-- The reset value is zero at its one entry. -/
theorem reset_apply : k0_pay1 (F := Ideal) (ix2 (0 : Fin 1) (0 : Fin 1)) = 0 := by
  unfold k0_pay1
  refine (congrFun (shapeCast_self _ _) _).trans ?_
  exact Ideal.ofBits_zero_f32

/-- The accumulate step at its one entry: the accumulator plus the block's sum, lanes first, then rows. -/
theorem accumulate_apply (u v : Vec Ideal S4096x128 .f32) (a : Vec Ideal S1x1 .f32) :
    k0_pay2 (F := Ideal) u v a (ix2 (0 : Fin 1) (0 : Fin 1)) = a (ix2 (0 : Fin 1) (0 : Fin 1)) + blockSum u v := by
  unfold k0_pay2
  refine (congrFun (shapeCast_self _ _) _).trans ?_
  refine (addf_apply _ _ _).trans ?_
  refine congrArg (a (ix2 (0 : Fin 1) (0 : Fin 1)) + ·) ?_
  refine (shapeCast_a_a1_apply _ _ (0 : Fin 1) (0 : Fin 1)).trans ?_
  refine (multiReduction_add_axis0_col_apply _ _ _ _ (0 : Fin 1)).trans ?_
  unfold blockSum
  refine Finset.sum_congr rfl fun k _ => ?_
  refine (shapeCast_a_a1_apply _ _ k (0 : Fin 1)).trans ?_
  refine (multiReduction_add_axis1_apply _ _ _ _ k).trans ?_
  exact Finset.sum_congr rfl fun c _ => rfl

end Cert.KernelIdeal.BlockPayload

end
-- ==== Proof.RunningTotal.lean ====
/-
  The accumulator after each grid point is the running total of the blocks' sums.

  Grid point `n` (of 64) is handed the block of rows `4096 n, …, 4096 n + 4095` of each array.  By the three
  cases' values the accumulator after point `0` is the accumulate step over zero, and after point `n + 1` the
  accumulate step over what point `n` left; the output at the last point is a copy of it.  On the extended reals
  the accumulate step adds the block's sum, so by induction on the point the accumulator's one entry after
  point `n` is the sum of the first `n + 1` blocks' sums, and after the last point the sum of every term.
-/
import proofs.«118409_j80358838108292_1_alg».proof.Proof.CasePieces
import proofs.«118409_j80358838108292_1_alg».proof.Proof.BlockPayload

noncomputable section

open scoped BigOperators

namespace Cert.KernelIdeal.RunningTotal

open Cert.KernelIdeal Cert.KernelIdeal.Gen Idealize.ShloMosaic Idealize.ShloMosaic.TcCoe Idealize.SL.Sem
open Idealize.ShloMosaic.ValueIdx Cert.EntropySum Cert.KernelIdeal.CasePieces Cert.KernelIdeal.BlockPayload
open Idealize.ShloMosaic.Pipeline (Dat)

/-! ## The accumulator and the output point by point, for any float instance -/

section AnyInstance

variable {F : FTy → Type} [FloatOps F]
variable (m : (ℓ : Loc nD τ sig) → Buf (Elt F) ℓ)

/-- After the first point the accumulator is the accumulate step over the reset value. -/
theorem acc_at_first (c : Dev nD) (t : Fin cfg0.N) (h0 : t.val % 64 = 0) (h1 : ¬t.val % 64 = 63) :
    (outsAt0 m c t.val t.isLt).2 = k0_pay2 (iblk m c 0 t) (iblk m c 1 t) (k0_pay1 (F := F)) :=
  (congrArg Prod.snd (outsAt0_A m c t h0 h1)).trans
    (acc_first c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t))

/-- After any later point it is the accumulate step over what the point before left. -/
theorem acc_at_next (c : Dev nD) (t : Fin cfg0.N) (h0 : ¬t.val % 64 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 64 = 63
  · exact (congrArg Prod.snd (outsAt0_C m c t h0 h1)).trans
      (acc_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _)
  · exact (congrArg Prod.snd (outsAt0_B m c t h0 h1)).trans
      (acc_middle c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) _)

/-- At the last point the output holds the same value as the accumulator. -/
theorem out_at_last (c : Dev nD) (t : Fin cfg0.N) (h0 : ¬t.val % 64 = 0) (h1 : t.val % 64 = 63) :
    (outsAt0 m c t.val t.isLt).1 = (outsAt0 m c t.val t.isLt).2 :=
  ((congrArg Prod.fst (outsAt0_C m c t h0 h1)).trans
    (out_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _)).trans
    (acc_at_next m c t h0).symm

/-- Where point `t`'s blocks sit in the arrays: block row `t`, block column `0`. -/
theorem block_index (t : Fin cfg0.N) :
    (win0_0.index t 0 = t.val ∧ win0_0.index t 1 = 0) ∧ (win0_1.index t 0 = t.val ∧ win0_1.index t 1 = 0) :=
  (by decide +kernel : ∀ t : Fin grid0.N,
    (win0_0.index t 0 = t.val ∧ win0_0.index t 1 = 0) ∧ (win0_1.index t 0 = t.val ∧ win0_1.index t 1 = 0)) t

/-- Entry `(k, l)` of point `t`'s block of the first array is entry `(4096 t + k, l)` of the array. -/
theorem block0_apply (c : Dev nD) (t : Fin cfg0.N) (k : Fin 4096) (l : Fin 128) :
    (iblk m c 0 t : Vec F S4096x128 .f32) (ix2 k l)
      = m ((c : Thread nD τ).loc main_arg0) (ix2 ⟨4096 * t.val + k.val, by
          have := k.isLt; have := lt_of_lt_of_eq t.isLt (show cfg0.N = 64 from N_0); omega⟩ l) := by
  have hi := (block_index t).1
  unfold iblk
  rw [View.read_apply]
  show m ((c : Thread nD τ).loc main_arg0) _ = m ((c : Thread nD τ).loc main_arg0) _
  congr 1
  funext a
  apply Fin.ext
  match a with
  | ⟨0, _⟩ => show win0_0.index t 0 * 4096 + 1 * k.val = 4096 * t.val + k.val; rw [hi.1]; omega
  | ⟨1, _⟩ => show win0_0.index t 1 * 128 + 1 * l.val = l.val; rw [hi.2]; omega

/-- The same for the second array. -/
theorem block1_apply (c : Dev nD) (t : Fin cfg0.N) (k : Fin 4096) (l : Fin 128) :
    (iblk m c 1 t : Vec F S4096x128 .f32) (ix2 k l)
      = m ((c : Thread nD τ).loc main_arg1) (ix2 ⟨4096 * t.val + k.val, by
          have := k.isLt; have := lt_of_lt_of_eq t.isLt (show cfg0.N = 64 from N_0); omega⟩ l) := by
  have hi := (block_index t).2
  unfold iblk
  rw [View.read_apply]
  show m ((c : Thread nD τ).loc main_arg1) _ = m ((c : Thread nD τ).loc main_arg1) _
  congr 1
  funext a
  apply Fin.ext
  match a with
  | ⟨0, _⟩ => show win0_1.index t 0 * 4096 + 1 * k.val = 4096 * t.val + k.val; rw [hi.1]; omega
  | ⟨1, _⟩ => show win0_1.index t 1 * 128 + 1 * l.val = l.val; rw [hi.2]; omega

end AnyInstance

/-! ## On the extended reals: the running total -/

variable (m : (ℓ : Loc nD τ sig) → Buf (Elt Ideal) ℓ)

/-- Point `t`'s pair of blocks sums to chunk `t` of the arrays' row sums. -/
theorem block_sum (c : Dev nD) (t : Fin cfg0.N) :
    blockSum (iblk m c 0 t : Vec Ideal S4096x128 .f32) (iblk m c 1 t : Vec Ideal S4096x128 .f32)
      = Cert.Lib.ChunkedSum.chunk 4096
          (rowSeq (m ((c : Thread nD τ).loc main_arg0)) (m ((c : Thread nD τ).loc main_arg1))) t.val :=
  blockSum_eq_chunk (m ((c : Thread nD τ).loc main_arg0)) (m ((c : Thread nD τ).loc main_arg1))
    (iblk m c 0 t : Vec Ideal S4096x128 .f32) (iblk m c 1 t : Vec Ideal S4096x128 .f32) t.val
    (lt_of_lt_of_eq t.isLt (show cfg0.N = 64 from N_0)) (block0_apply m c t) (block1_apply m c t)

/-- The accumulator's entry after point `n` is the sum of the first `n + 1` blocks' sums. -/
theorem acc_value (c : Dev nD) : ∀ (n : ℕ) (h : n < cfg0.N),
    (outsAt0 m c n h).2 (ix2 (0 : Fin 1) (0 : Fin 1))
      = partialSum (m ((c : Thread nD τ).loc main_arg0)) (m ((c : Thread nD τ).loc main_arg1)) n
  | 0, h => by
    refine (congrFun (acc_at_first m c ⟨0, h⟩ rfl (by dsimp only; omega)) _).trans ?_
    refine (accumulate_apply (iblk m c 0 ⟨0, h⟩) (iblk m c 1 ⟨0, h⟩) (k0_pay1 (F := Ideal))).trans ?_
    exact partialSum_zero _ _ _ _ reset_apply (block_sum m c ⟨0, h⟩)
  | n + 1, h => by
    have hN : n + 1 < 64 := lt_of_lt_of_eq h (show cfg0.N = 64 from N_0)
    refine (congrFun (acc_at_next m c ⟨n + 1, h⟩ (by dsimp only; omega)) _).trans ?_
    refine (accumulate_apply (iblk m c 0 ⟨n + 1, h⟩) (iblk m c 1 ⟨n + 1, h⟩) _).trans ?_
    exact partialSum_succ _ _ n _ _ (acc_value c n (Nat.lt_of_succ_lt h)) (block_sum m c ⟨n + 1, h⟩)

/-- After the last point the output's entry is the sum of every term. -/
theorem out_value (c : Dev nD) (h : 63 < cfg0.N) :
    (outsAt0 m c 63 h).1 (ix2 (0 : Fin 1) (0 : Fin 1))
      = total (m ((c : Thread nD τ).loc main_arg0)) (m ((c : Thread nD τ).loc main_arg1)) := by
  refine (congrFun (out_at_last m c ⟨63, h⟩ (by dsimp only; omega) rfl) _).trans ?_
  exact (acc_value m c 63 h).trans (partialSum_last _ _)

end Cert.KernelIdeal.RunningTotal

end
-- ==== Proof.KernelResult.lean ====
/-
  The kernel's result array, and its run.

  The 1×1 output array has one block, written back once, after the last grid point; so after the region it holds
  what the body left in the output at that point — on the extended reals the sum of every term
  `x · log (t + ε)`.  The operations after the region turn the 1×1 array into a scalar, negate it, divide it by
  262144.0 and make a one-element vector of it.  Every weakly fair execution of the program therefore ends with
  the result at that sign-and-scale of the total, and with the two argument arrays as they were.
-/
import proofs.«118409_j80358838108292_1_alg».proof.Proof.RunningTotal
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.ValueIdx Cert.EntropySum
open Idealize.ShloMosaic.Pipeline (Dat)

/-! ## The output array after the region, for any float instance -/

section AnyInstance

variable {F : FTy → Type} [FloatOps F]
variable (m : (ℓ : Loc nD τ sig) → Buf (Elt F) ℓ) (ρ : Dev nD → PrngReg)

/-- The last grid point. -/
abbrev lastPoint : Fin cfg0.N := ⟨63, by rw [show cfg0.N = 64 from N_0]; decide⟩

/-- What the body leaves in the output at the last point, as contents of the 1×1 output array (whose one block is
    the whole array). -/
abbrev held (c : Dev nD) : Buf (Elt F) ((c : Thread nD τ).loc main_v0) := (outsAt0 m c 63 lastPoint.isLt).1

/-- The one write-back, at the last point, writes it: the block at zero offsets is the whole array. -/
theorem flushed_eq (c : Dev nD) (t : Fin cfg0.N) (hf : (cfg0.win 2).flush t = true) :
    (dats m 0 c).flushed 2 t = ((cfg0.win 2).blk t).view.read (Elt F) (held m c) := by
  have hN : cfg0.N = 64 := N_0
  have h63 : t.val = 63 := by have := (flush0_2 t).mp hf; have := t.isLt; omega
  obtain rfl : t = lastPoint := Fin.ext h63
  show (cfg0.win 2).cut (grid0.coords lastPoint) ((dats m 0 c).after 2 lastPoint) = _
  rw [after0_2]
  have hz' : (fun a => win0_2.index lastPoint a * main_v0.ty.shape.size a) = fun _ => 0 :=
    funext fun a => by fin_cases a <;> decide
  exact (Memref.read_access_unit_zero (Elt F) main_v0 hz' (fun a => by rw [congrFun hz' a]; simp) (held m c)).symm

/-- So the output array ends holding it: the last point's block covers the array's one entry. -/
theorem final (c : Dev nD) : (dats m 0 c).arrAt 2 cfg0.N = held m c :=
  (dats m 0 c).arrAt_eq_of_cover 2 (held m c) (flushed_eq m c) fun i =>
    ⟨lastPoint, (flush0_2 lastPoint).mpr rfl, by
      show i ∈ ((View.whole main_v0).slice (win0_2.rect lastPoint)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index lastPoint 0 * win0_2.size 0 ≤ (i 0 : Nat)
          ∧ (i 0 : Nat) < win0_2.index lastPoint 0 * win0_2.size 0 + win0_2.xsize (grid0.coords lastPoint) 0
        rw [show win0_2.index lastPoint 0 * win0_2.size 0 = 0 from by decide +kernel,
          show win0_2.xsize (grid0.coords lastPoint) 0 = 1 from by decide +kernel]
        omega
      | ⟨1, _⟩ =>
        show win0_2.index lastPoint 1 * win0_2.size 1 ≤ (i 1 : Nat)
          ∧ (i 1 : Nat) < win0_2.index lastPoint 1 * win0_2.size 1 + win0_2.xsize (grid0.coords lastPoint) 1
        rw [show win0_2.index lastPoint 1 * win0_2.size 1 = 0 from by decide +kernel,
          show win0_2.xsize (grid0.coords lastPoint) 1 = 1 from by decide +kernel]
        omega⟩

/-- The operations after the region, applied to the output array: scalar of the 1×1 array, negated, divided by
    262144.0, as a one-element vector. -/
theorem tail_value (c : Dev nD) :
    Pipeline.afterTail₀ cfgs (dats m) 0 (V0 m) [hostOps1] c main_v4
      = broadcastInDim S1 ![] bcast_S_S1
          (Host.divf (Host.negf (shapeCast S_ (held m c) shapeCasts_S1x1_S_)) (constant S_ .f32 0x48800000#32)) := by
  unfold Pipeline.afterTail₀
  show StableHlo.after hostOps1 _ (Proc.devRef .tc main_v4) = _
  after_results
  have hA : Pipeline.withArrays (cfgs 0).spec c (V0 m c) (fun w => (dats m 0 c).arrAt w (cfgs 0).N)
      (Proc.devRef .tc main_v0) = held m c :=
    (Pipeline.withArrays_arr spec0 launch0.win.arr_inj c (V0 m c) (fun w => (dats m 0 c).arrAt w (cfgs 0).N) 2).trans
      (final m c)
  rw [hA]
  rfl

/-- The result buffer is none of the region's arrays, and is not scoped: the frame run's post speaks of it. -/
theorem result_unstaged : main_v4 ∈ Pipeline.restRefs sig (cfgs 0).spec :=
  Pipeline.mem_restRefs_of main_v4 rfl (fun w => by fin_cases w <;> decide)

end AnyInstance

/-! ## On the extended reals -/

/-- Every index of a 1×1 array is `(0, 0)`. -/
theorem idx_1x1 (j : S1x1.Idx) : j = ix2 (0 : Fin 1) (0 : Fin 1) := by
  funext a
  match a with
  | ⟨0, _⟩ => exact Fin.ext (by have := idx2_lt0 j; show (j 0).val = 0; omega)
  | ⟨1, _⟩ => exact Fin.ext (by have := idx2_lt1 j; show (j 1).val = 0; omega)

/-- The loss from the total: negated, divided by 262144.0, as a one-element vector. -/
def lossOf (s : EReal) : (⟨S1, .f32⟩ : BufTy).Contents (Elt Ideal) :=
  broadcastInDim S1 ![] bcast_S_S1
    (Host.divf (F := Ideal) (Host.negf (F := Ideal) (fun _ : S_.Idx => s)) (constant (F := Ideal) S_ .f32 0x48800000#32))

variable (m : (ℓ : Loc nD τ sig) → Buf (Elt Ideal) ℓ) (ρ : Dev nD → PrngReg)

/-- The scalar made of the output array is the sum of every term. -/
theorem scalar_eq (c : Dev nD) :
    shapeCast S_ (held m c) shapeCasts_S1x1_S_
      = fun _ : S_.Idx => total (m ((c : Thread nD τ).loc main_arg0)) (m ((c : Thread nD τ).loc main_arg1)) := by
  funext i
  unfold shapeCast
  exact (congrArg (held m c) (idx_1x1 _)).trans (Cert.KernelIdeal.RunningTotal.out_value m c lastPoint.isLt)

/-- THE KERNEL'S RUN: every weakly fair execution ends with the result at the loss of the arrays' total and the
    arguments unchanged. -/
theorem run : θ_run defs (onTc (τ := τ) (main (F := Ideal))) ⟨m, fun _ => 0, ρ⟩ fun r => ∀ c : Dev nD,
      r.2.mem ((c : Thread nD τ).loc main_v4)
        = lossOf (total (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v4 result_unstaged).trans ((tail_value m c).trans (by rw [scalar_eq m c]; rfl)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.ReferenceSum.lean ====
/-
  The reference's sum is the same total.

  The reference adds ε to the second array, takes logarithms, multiplies by the first array entry by entry, and
  sums every entry at once from zero.  On the extended reals that is `0 + ∑ⱼ x(j) · log (t(j) + ε)`, the sum of
  every term.
-/
import proofs.«118409_j80358838108292_1_alg».proof.Proof.Gen.ReferenceIdeal.Read
import proofs.«118409_j80358838108292_1_alg».proof.Proof.EntropySum

noncomputable section

open scoped BigOperators

namespace Cert.ReferenceIdeal.RefValue

open Cert.ReferenceIdeal Cert.ReferenceIdeal.Gen Cert.ReferenceIdeal.Read Idealize.ShloMosaic Cert.EntropySum

/-- The reference's reduction, at its one index, is the sum of every term. -/
theorem sum_eq_total (x0 x1 : (⟨S262144x128, .f32⟩ : BufTy).Contents (Elt Ideal)) (i : S_.Idx) :
    val_main_v4 (F := Ideal) x0 x1 i = total x0 x1 := by
  rw [val_main_v4_apply, val_main_cst_0_apply]
  show Ideal.ofBits .f32 0x00000000#32 + _ = _
  rw [Ideal.ofBits_zero_f32, zero_add]
  unfold total
  refine Finset.sum_congr rfl fun j _ => ?_
  rw [val_main_v3_apply, val_main_v2_apply, val_main_v1_apply, val_main_v0_apply, val_main_cst_apply]
  rfl

end Cert.ReferenceIdeal.RefValue

end
-- ==== Proof.lean ====
/-
  The certificate of a cross-entropy loss kernel against its reference: both compute
  `-(∑ x · log (t + ε)) / 262144` over arrays of 262144 rows by 128 lanes, as a one-element vector.

  The kernel walks the rows in 64 blocks of 4096: at each grid point it sums the block's terms (each row's lanes,
  then the rows) into a 1×1 accumulator that it resets at the first point and copies to its output at the last;
  the lines after it negate the total and divide by 262144.0.  The reference sums every term at once, then
  negates and divides by the same constant.  On the extended reals addition is commutative and associative, so
  the accumulator after the last point is the sum of every term, whatever the entries are (nothing here needs an
  entry to be finite), and the two results are the same sign-and-scale of that one total.

  The three frame claims are the generated frame runs (the reference's its generated run with the result
  dropped); the kernel's idealization rewrote nothing, so `preserves` is trivial; `algebraic` puts the kernel's
  run (Proof/KernelResult.lean) beside the reference's generated run read at the total (Proof/ReferenceSum.lean).
-/
import proofs.«118409_j80358838108292_1_alg».proof.Defs
import proofs.«118409_j80358838108292_1_alg».proof.Proof.Gen.Kernel
import proofs.«118409_j80358838108292_1_alg».proof.Proof.Gen.Kernel.Skeleton
import proofs.«118409_j80358838108292_1_alg».proof.Proof.Gen.Kernel.Launch
import proofs.«118409_j80358838108292_1_alg».proof.Proof.Gen.Kernel.Points
import proofs.«118409_j80358838108292_1_alg».proof.Proof.Gen.Kernel.Frame
import proofs.«118409_j80358838108292_1_alg».proof.Proof.Gen.KernelIdeal
import proofs.«118409_j80358838108292_1_alg».proof.Proof.Gen.KernelIdeal.Skeleton
import proofs.«118409_j80358838108292_1_alg».proof.Proof.Gen.KernelIdeal.Launch
import proofs.«118409_j80358838108292_1_alg».proof.Proof.Gen.KernelIdeal.Points
import proofs.«118409_j80358838108292_1_alg».proof.Proof.Gen.KernelIdeal.Frame
import proofs.«118409_j80358838108292_1_alg».proof.Proof.Gen.ReferenceIdeal
import proofs.«118409_j80358838108292_1_alg».proof.Proof.Gen.ReferenceIdeal.Run
import proofs.«118409_j80358838108292_1_alg».proof.Proof.Gen.ReferenceIdeal.Read
import proofs.«118409_j80358838108292_1_alg».proof.Proof.Gen.Pre_finite_inputs
import proofs.«118409_j80358838108292_1_alg».proof.Proof.KernelResult
import proofs.«118409_j80358838108292_1_alg».proof.Proof.ReferenceSum
import Idealize.ShloMosaic.Adequacy
import Idealize.ShloMosaic.Init

noncomputable section

namespace Cert.Proof

open Idealize.ShloMosaic Idealize.ShloMosaic.TcCoe Idealize.SL.Sem

/-- The kernel as printed runs and leaves its arguments unchanged: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the loss of one total: the kernel's accumulated block by block, the reference's summed at
    once, over arguments that agree. -/
theorem algebraic : Cert.algebraic_KernelIdeal_ReferenceIdeal := by
  intro m ρ m' ρ' _ hagree
  refine ⟨fun c => Cert.KernelIdeal.Result.lossOf (Cert.EntropySum.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, (hagree c).1, (hagree c).2]
  have hsum := Cert.ReferenceIdeal.RefValue.sum_eq_total
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
  unfold Cert.ReferenceIdeal.Read.val_main_v7 Cert.ReferenceIdeal.Read.val_main_v6 Cert.ReferenceIdeal.Read.val_main_v5
  rw [show Cert.ReferenceIdeal.Read.val_main_v4 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
        = fun _ => Cert.EntropySum.total
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
      from funext hsum]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
